-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S128x2048 : Shape := ⟨2, ![128, 2048]⟩
abbrev S128 : Shape := ⟨1, ![128]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  bcast_S_S128x2048 : S_.BroadcastsInDim S128x2048 (![] : Fin 0 → Fin S128x2048.rank)
  reducesTo_S128x2048_S_d0_1 : S128x2048.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16x2048x64 .f32) (main_arg1 : FVec F S128x2048 .f32) (main_arg2 : FVec F S128 .f32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S128x2048 .f32 := Host.absf main_arg1
  let main_cst_0 : FVec F S_ .f32 := constant S_ .f32 0x7F800000#32
  let main_v5 : FVec F S128x2048 .f32 := broadcastInDim S128x2048 ![] bcast_S_S128x2048 main_cst_0
  let main_v6 : IVec S128x2048 1 := cmpf .olt main_v4 main_v5
  let main_c_1 : IVec S_ 1 := constantI S_ 1 1#1
  let main_v7 : IVec S_ 1 := (fun x v => Host.reduce IntOp.andi x v reducesTo_S128x2048_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S16x2048x64 : Shape := ⟨3, ![16, 2048, 64]⟩
abbrev S128x2048 : Shape := ⟨2, ![128, 2048]⟩
abbrev S128 : Shape := ⟨1, ![128]⟩
abbrev S16x2048x128 : Shape := ⟨3, ![16, 2048, 128]⟩
abbrev S1x2048x64 : Shape := ⟨3, ![1, 2048, 64]⟩
abbrev S1x2048x128 : Shape := ⟨3, ![1, 2048, 128]⟩
abbrev S2048x64 : Shape := ⟨2, ![2048, 64]⟩
abbrev S128x64 : Shape := ⟨2, ![128, 64]⟩
abbrev S64x128 : Shape := ⟨2, ![64, 128]⟩
abbrev S2048x128 : Shape := ⟨2, ![2048, 128]⟩
abbrev S1x128 : Shape := ⟨2, ![1, 128]⟩

abbrev nBuf : Space → Nat
  | .hbm => 4
  | .vmem => 6
  | .smem => 0
  | _ => 0

abbrev bufTy : (tb : Table) → Fin (tcTables nBuf tb) → BufTy
  | .hbm, ⟨0, _⟩ => ⟨S16x2048x64, .f32⟩
  | .hbm, ⟨1, _⟩ => ⟨S128x2048, .f32⟩
  | .hbm, ⟨2, _⟩ => ⟨S128, .f32⟩
  | .hbm, ⟨3, _⟩ => ⟨S16x2048x128, .f32⟩
  | .local _ .vmem, ⟨0, _⟩ => ⟨S1x2048x64, .f32⟩
  | .local _ .vmem, ⟨1, _⟩ => ⟨S1x2048x64, .f32⟩
  | .local _ .vmem, ⟨2, _⟩ => ⟨S128x2048, .f32⟩
  | .local _ .vmem, ⟨3, _⟩ => ⟨S128, .f32⟩
  | .local _ .vmem, ⟨4, _⟩ => ⟨S1x2048x128, .f32⟩
  | .local _ .vmem, ⟨5, _⟩ => ⟨S1x2048x128, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S128x2048_S128x2048_0_0 : ∀ a, (![0, 0] : Fin 2 → Nat) a + S128x2048.size a ≤ S128x2048.size a
  h_S128x2048 : 0 < S128x2048.numel
  transposes_S128x64_p1_0_S64x128 : S128x64.Transposes [1, 0] S64x128
  inb_S128_S128_0 : ∀ a, (![0] : Fin 1 → Nat) a + S128.size a ≤ S128.size a
  h_S128 : 0 < S128.numel
  shapeCasts_S128_S1x128 : S128.ShapeCasts S1x128
  broadcasts_S1x128_S2048x128 : S1x128.Broadcasts S2048x128
  inb_S1x2048x128_S1x2048x128_0_0_0 : ∀ a, (![0, 0, 0] : Fin 3 → Nat) a + S1x2048x128.size a ≤ S1x2048x128.size a
  h_S1x2048x128 : 0 < S1x2048x128.numel
  shapeCasts_S1x2048x128_S2048x128 : S1x2048x128.ShapeCasts S2048x128
  shapeCasts_S2048x128_S1x2048x128 : S2048x128.ShapeCasts S1x2048x128
  dot_S128x2048_S2048x64_S128x64_1_0_0_1_n_n_wf : DotDims.WF S128x2048 S2048x64 S128x64 [1] [0] [0] [1] [] []
  dot_S2048x64_S64x128_S2048x128_1_0_0_1_n_n_wf : DotDims.WF S2048x64 S64x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x64.size a ≤ S16x2048x64.size a
  hwx0_0 : ∀ i : grid0.Coords, EltTy.bits .f32 = 32 ∨ (Rect.block (s := S16x2048x64) S1x2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S128x2048.size a
  hwx0_1 : ∀ i : grid0.Coords, EltTy.bits .f32 = 32 ∨ (Rect.block (s := S128x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x2048x128.size a ≤ S16x2048x128.size a
  hwx0_3 : ∀ i : grid0.Coords, EltTy.bits .f32 = 32 ∨ (Rect.block (s := S16x2048x128) S1x2048x128.size (cc0_transform_3 i) (hinb0_3 i)).WholeWords (EltTy.packing .f32)

variable [Facts₀]

def dot_S128x2048_S2048x64_S128x64_1_0_0_1_n_n : DotDims S128x2048 S2048x64 S128x64 where
  lhsContracting := [1]
  rhsContracting := [0]
  lhsNonContracting := [0]
  rhsNonContracting := [1]
  lhsBatch := []
  rhsBatch := []
  wf := dot_S128x2048_S2048x64_S128x64_1_0_0_1_n_n_wf
def dot_S2048x64_S64x128_S2048x128_1_0_0_1_n_n : DotDims S2048x64 S64x128 S2048x128 where
  lhsContracting := [1]
  rhsContracting := [0]
  lhsNonContracting := [0]
  rhsNonContracting := [1]
  lhsBatch := []
  rhsBatch := []
  wf := dot_S2048x64_S64x128_S2048x128_1_0_0_1_n_n_wf

abbrev win0_0 : Pipeline.Window sig grid0 :=
  Pipeline.Window.ofSpec (Memref.whole main_arg0) S1x2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x2048x64 : Shape := ⟨3, ![16, 2048, 64]⟩
abbrev S128x2048 : Shape := ⟨2, ![128, 2048]⟩
abbrev S128 : Shape := ⟨1, ![128]⟩
abbrev S16x2048x2048 : Shape := ⟨3, ![16, 2048, 2048]⟩
abbrev S16x2048x128 : Shape := ⟨3, ![16, 2048, 128]⟩
abbrev S1x1x128 : Shape := ⟨3, ![1, 1, 128]⟩

abbrev nBuf : Space → Nat
  | .hbm => 8
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S128x2048, .f32⟩
  | .hbm, ⟨2, _⟩ => ⟨S128, .f32⟩
  | .hbm, ⟨3, _⟩ => ⟨S16x2048x2048, .f32⟩
  | .hbm, ⟨4, _⟩ => ⟨S16x2048x128, .f32⟩
  | .hbm, ⟨5, _⟩ => ⟨S1x1x128, .f32⟩
  | .hbm, ⟨6, _⟩ => ⟨S16x2048x128, .f32⟩
  | .hbm, ⟨7, _⟩ => ⟨S16x2048x128, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S16x2048x128_0_1_2 : S1x1x128.BroadcastsInDim S16x2048x128 (![0, 1, 2] : Fin 3 → Fin S16x2048x128.rank)
  dot_S16x2048x64_S16x2048x64_S16x2048x2048_2_2_1_1_0_0_wf : DotDims.WF S16x2048x64 S16x2048x64 S16x2048x2048 [2] [2] [1] [1] [0] [0]
  dot_S16x2048x2048_S128x2048_S16x2048x128_2_1_01_0_n_n_wf : DotDims.WF S16x2048x2048 S128x2048 S16x2048x128 [2] [1] [0, 1] [0] [] []

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S128x2048_S16x2048x128_2_1_01_0_n_n : DotDims S16x2048x2048 S128x2048 S16x2048x128 where
  lhsContracting := [2]
  rhsContracting := [1]
  lhsNonContracting := [0, 1]
  rhsNonContracting := [0]
  lhsBatch := []
  rhsBatch := []
  wf := dot_S16x2048x2048_S128x2048_S16x2048x128_2_1_01_0_n_n_wf

class Facts : Prop extends Facts₀ where

variable [Facts]
-- ==== Proof.Spec.lean ====
/-
  The mathematics of the certificate, with no program in sight.

  For a batch of matrices X[b] (2048 × 64), a weight matrix W (128 × 2048) and a bias vector, two arrangements of one
  quadratic form in X:
    * the GRAM arrangement: first the Gram matrix X[b] · X[b]ᵀ (2048 × 2048), then its product with Wᵀ,
        out[b, s, o] = Σ_t (Σ_d X[b, s, d] · X[b, t, d]) · W[o, t] + bias[o];
    * the PROJECTED arrangement: first the projection W · X[b] (128 × 64), then X[b] times its transpose,
        out[b, s, o] = Σ_d X[b, s, d] · (Σ_t W[o, t] · X[b, t, d]) + bias[o].
  Over the reals they agree: distribute the factor X[b, s, d] over the inner sum, exchange the two finite sums, and
  collect the factor W[o, t]. On the extended reals distributivity fails at the infinities, so the agreement is stated
  for arrays all of whose entries are real numbers; the bias is only ever added last, on both sides alike, and needs no
  such hypothesis.
-/
import Idealize.ShloMosaic.PureOps.Ideal
import Idealize.ShloMosaic.Lib.ValueIdx

noncomputable section

open scoped BigOperators
open Idealize.ShloMosaic Idealize.ShloMosaic.ValueIdx

namespace Cert.QuadForm

/-! ## Finite real sums inside the extended reals -/

/-- The inclusion of the reals in the extended reals carries a finite sum to the sum of the images. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- THE LAW. For real families u (one row of X), w (one row of W) and x (the whole of X[b]):
    Σ_d u_d · (Σ_t w_t · x_{t,d}) = Σ_t (Σ_d u_d · x_{t,d}) · w_t, read in the extended reals. Both sides are the double
    sum Σ_d Σ_t u_d · w_t · x_{t,d}. -/
theorem sum_mul_sum_comm {ι κ : Type*} [Fintype ι] [Fintype κ] (u : ι → ℝ) (w : κ → ℝ) (x : κ → ι → ℝ) :
    (∑ d, (u d : EReal) * ∑ t, (w t : EReal) * (x t d : EReal))
      = ∑ t, (∑ d, (u d : EReal) * (x t d : EReal)) * (w t : EReal) := by
  simp only [← EReal.coe_mul, ← coe_sum]
  refine congrArg _ ?_
  simp only [Finset.mul_sum, Finset.sum_mul]
  rw [Finset.sum_comm]
  exact Finset.sum_congr rfl fun t _ => Finset.sum_congr rfl fun d _ => by ring

/-! ## The two arrangements, entry by entry -/

/-- Entry (b, s, o) in the Gram arrangement: Σ_t (Σ_d X[b,s,d] · X[b,t,d]) · W[o,t] + bias[o]. -/
def gramAt (X : (⟨3, ![16, 2048, 64]⟩ : Shape).Idx → EReal) (W : (⟨2, ![128, 2048]⟩ : Shape).Idx → EReal)
    (bias : (⟨1, ![128]⟩ : Shape).Idx → EReal) (b : Fin 16) (s : Fin 2048) (o : Fin 128) : EReal :=
  (∑ t : Fin 2048, (∑ d : Fin 64, X (ix3 b s d) * X (ix3 b t d)) * W (ix2 o t)) + bias (ix1 o)

/-- Entry (b, s, o) in the projected arrangement: Σ_d X[b,s,d] · (Σ_t W[o,t] · X[b,t,d]) + bias[o]. -/
def projAt (X : (⟨3, ![16, 2048, 64]⟩ : Shape).Idx → EReal) (W : (⟨2, ![128, 2048]⟩ : Shape).Idx → EReal)
    (bias : (⟨1, ![128]⟩ : Shape).Idx → EReal) (b : Fin 16) (s : Fin 2048) (o : Fin 128) : EReal :=
  (∑ d : Fin 64, X (ix3 b s d) * ∑ t : Fin 2048, W (ix2 o t) * X (ix3 b t d)) + bias (ix1 o)

/-- The Gram arrangement as a whole array. -/
def gram (X : (⟨3, ![16, 2048, 64]⟩ : Shape).Idx → EReal) (W : (⟨2, ![128, 2048]⟩ : Shape).Idx → EReal)
    (bias : (⟨1, ![128]⟩ : Shape).Idx → EReal) : (⟨3, ![16, 2048, 128]⟩ : Shape).Idx → EReal :=
  fun i => gramAt X W bias (i 0) (i 1) (i 2)

/-- The projected arrangement as a whole array. -/
def proj (X : (⟨3, ![16, 2048, 64]⟩ : Shape).Idx → EReal) (W : (⟨2, ![128, 2048]⟩ : Shape).Idx → EReal)
    (bias : (⟨1, ![128]⟩ : Shape).Idx → EReal) : (⟨3, ![16, 2048, 128]⟩ : Shape).Idx → EReal :=
  fun i => projAt X W bias (i 0) (i 1) (i 2)

/-- Where every entry of X and of W is a real number the two arrangements agree entry by entry (the law above, at
    u = X[b, s, ·], w = W[o, ·], x = X[b]); the bias is the same last summand on both sides. -/
theorem projAt_eq_gramAt (X : (⟨3, ![16, 2048, 64]⟩ : Shape).Idx → EReal) (W : (⟨2, ![128, 2048]⟩ : Shape).Idx → EReal)
    (bias : (⟨1, ![128]⟩ : Shape).Idx → EReal)
    (hX : ∀ i, ∃ r : ℝ, X i = (r : EReal)) (hW : ∀ i, ∃ r : ℝ, W i = (r : EReal))
    (b : Fin 16) (s : Fin 2048) (o : Fin 128) : projAt X W bias b s o = gramAt X W bias b s o := by
  choose x hx using hX
  choose w hw using hW
  unfold projAt gramAt
  simp only [hx, hw]
  exact congrArg (· + bias (ix1 o))
    (sum_mul_sum_comm (fun d => x (ix3 b s d)) (fun t => w (ix2 o t)) (fun t d => x (ix3 b t d)))

/-- So the two whole arrays are one. -/
theorem proj_eq_gram (X : (⟨3, ![16, 2048, 64]⟩ : Shape).Idx → EReal) (W : (⟨2, ![128, 2048]⟩ : Shape).Idx → EReal)
    (bias : (⟨1, ![128]⟩ : Shape).Idx → EReal)
    (hX : ∀ i, ∃ r : ℝ, X i = (r : EReal)) (hW : ∀ i, ∃ r : ℝ, W i = (r : EReal)) :
    proj X W bias = gram X W bias :=
  funext fun i => projAt_eq_gramAt X W bias hX hW (i 0) (i 1) (i 2)

end Cert.QuadForm

end
-- ==== Proof.RefGram.lean ====
/-
  The reference's result, read one operation at a time, is the Gram arrangement.

  The reference first forms, per batch b, the Gram matrix v0[b, s, t] = Σ_d X[b, s, d] · X[b, t, d] (a dot_general that
  batches axis 0 and contracts axis 2 of X against itself), then contracts its last axis against W's:
  v1[b, s, o] = Σ_t v0[b, s, t] · W[o, t], and last adds the bias laid along the last axis. Read at an index
  i = (b, s, o) this is exactly `gramAt X W bias b s o`: all that is left to say is that the operand indices the
  operations compose are the coordinate triples and pairs the specification names.
-/
import proofs.«109744_j58548994179562_1_alg».proof.Proof.Gen.ReferenceIdeal.Read
import proofs.«109744_j58548994179562_1_alg».proof.Proof.Spec

noncomputable section

open scoped BigOperators
open Idealize.ShloMosaic Idealize.ShloMosaic.ValueIdx

namespace Cert.QuadForm.Ref

open Cert.ReferenceIdeal Cert.ReferenceIdeal.Read

/-- The reference's result array is the Gram arrangement of its three arguments. -/
theorem result_eq_gram (X : FVec Ideal S16x2048x64 .f32) (W : FVec Ideal S128x2048 .f32) (bias : FVec Ideal S128 .f32) :
    val_main_v4 (F := Ideal) X W bias = gram X W bias := by
  funext i
  -- row s of X[b] against row t of X[b]: the Gram matrix's entry (b, s, t)
  have eL : ∀ (t : Fin 2048) (d : Fin 64), lidx_main_v0 (lidx_main_v1 i t) d = ix3 (i 0) (i 1) d := fun t d =>
    funext fun a => by match a with | ⟨0, _⟩ => rfl | ⟨1, _⟩ => rfl | ⟨2, _⟩ => rfl
  have eR : ∀ (t : Fin 2048) (d : Fin 64), ridx_main_v0 (lidx_main_v1 i t) d = ix3 (i 0) t d := fun t d =>
    funext fun a => by match a with | ⟨0, _⟩ => rfl | ⟨1, _⟩ => rfl | ⟨2, _⟩ => rfl
  -- row o of W
  have eW : ∀ t : Fin 2048, ridx_main_v1 i t = ix2 (i 2) t := fun t =>
    funext fun a => by match a with | ⟨0, _⟩ => rfl | ⟨1, _⟩ => rfl
  -- the bias is laid along the last axis
  have eB : idx_main_v2 (idx_main_v3 i) = ix1 (i 2) :=
    funext fun a => by match a with | ⟨0, _⟩ => rfl
  rw [val_main_v4_apply, val_main_v1_apply, val_main_v3_apply, val_main_v2_apply]
  simp only [val_main_v0_apply, eL, eR, eW, eB]
  rfl

end Cert.QuadForm.Ref

end
-- ==== Proof.Body.lean ====
/-
  The kernel body's stored value, read at an index, is the projected arrangement of the three loaded blocks.

  The body loads the block x0 = X[b] (as 1 × 2048 × 64, viewed 2048 × 64), the whole of W (128 × 2048) and the bias, and
  stores, viewed 1 × 2048 × 128,
      X[b] · (W · X[b])ᵀ + bias laid along the rows,
  two matrix products into zero accumulators with a transpose between them. At an index (0, s, o):
      Σ_d x0[0, s, d] · (Σ_t x1[o, t] · x0[0, t, d]) + x2[o].
  Each layout operation is read at an index (a block viewed without its unit axis; a transpose; the bias as one row
  laid down the rows), and each matrix product at the ideal values is the plain sum over its one contracted axis.
-/
import proofs.«109744_j58548994179562_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators
open Idealize.ShloMosaic Idealize.ShloMosaic.ValueIdx

namespace Cert.QuadForm.Body

open Cert.KernelIdeal Cert.KernelIdeal.Gen

/-! ## The layout operations at an index -/

/-- The block X[b], loaded as 1 × 2048 × 64 and viewed 2048 × 64, at (t, d) is the block at (0, t, d). -/
theorem block_row (x0 : Vec Ideal S1x2048x64 .f32) (h : S1x2048x64.ShapeCasts S2048x64) (t : Fin 2048) (d : Fin 64) :
    shapeCast S2048x64 x0 h (ix2 t d) = x0 (ix3 0 t d) :=
  shapeCast_apply x0 h (ix2 t d) (ix3 0 t d) (by
    rw [Shape.rowMajor_val_three, Shape.rowMajor_val_two]
    show ((0 : Nat) * 2048 + t.val) * 64 + d.val = t.val * 64 + d.val
    omega)

/-- The bias, viewed as one row and laid down the 2048 rows, at (s, o) is the bias at o. -/
theorem bias_rows (x2 : Vec Ideal S128 .f32) (h : S128.ShapeCasts S1x128) (h' : S1x128.Broadcasts S2048x128)
    (s : Fin 2048) (o : Fin 128) :
    broadcastTo S2048x128 (shapeCast S1x128 x2 h) h' (ix2 s o) = x2 (ix1 o) := by
  refine (broadcastTo_apply _ h' (ix2 s o) (ix2 (0 : Fin 1) o) (fun a => ?_)).trans ?_
  · match a with
    | ⟨0, _⟩ => rfl
    | ⟨1, _⟩ => rfl
  · exact shapeCast_apply x2 h (ix2 (0 : Fin 1) o) (ix1 o) (by
      rw [Shape.rowMajor_val_one, Shape.rowMajor_val_two]
      show o.val = (0 : Nat) * 128 + o.val
      omega)

/-- The transpose of a 128 × 64 matrix at (d, o) is the matrix at (o, d). -/
theorem transpose_at (y : FVec Ideal S128x64 .f32) (h : S128x64.Transposes [1, 0] S64x128) (d : Fin 64) (o : Fin 128) :
    transpose S64x128 [1, 0] y h (ix2 d o) = y (ix2 o d) :=
  transpose_apply [1, 0] y h (ix2 d o) (ix2 o d) (fun b => by
    match b with
    | ⟨0, _⟩ => rfl
    | ⟨1, _⟩ => rfl)

/-! ## The two matrix products at an index

Both are plain products (rows × contraction times contraction × columns, no batch axis): at an output index (r, c) and
a contraction index k the left operand is read at (r, k) and the right at (k, c). -/

local notation "D₁" => dot_S128x2048_S2048x64_S128x64_1_0_0_1_n_n
local notation "D₂" => dot_S2048x64_S64x128_S2048x128_1_0_0_1_n_n

theorem lhs₁_0 (i : S128x64.Idx) (q : (D₁).contr.Idx) : ((D₁).lhsIdx i q 0).val = (i 0).val := by
  unfold DotDims.lhsIdx
  rw [dif_neg (show ¬(0 : Fin S128x2048.rank) ∈ (D₁).lhsBatch by decide),
    dif_pos (show (0 : Fin S128x2048.rank) ∈ (D₁).lhsNonContracting by decide)]
  rfl
theorem lhs₁_1 (i : S128x64.Idx) (q : (D₁).contr.Idx) : ((D₁).lhsIdx i q 1).val = (q ⟨0, by decide⟩).val :=
  (D₁).lhsIdx_val_of_single rfl i q
theorem rhs₁_0 (i : S128x64.Idx) (q : (D₁).contr.Idx) : ((D₁).rhsIdx i q 0).val = (q ⟨0, by decide⟩).val :=
  (D₁).rhsIdx_val_of_single rfl i q
theorem rhs₁_1 (i : S128x64.Idx) (q : (D₁).contr.Idx) : ((D₁).rhsIdx i q 1).val = (i 1).val := by
  unfold DotDims.rhsIdx
  rw [dif_neg (show ¬(1 : Fin S2048x64.rank) ∈ (D₁).rhsBatch by decide),
    dif_pos (show (1 : Fin S2048x64.rank) ∈ (D₁).rhsNonContracting by decide)]
  rfl

/-- W · X[b] at (o, d): the sum over the 2048 rows t of W[o, t] · X[b][t, d]. -/
theorem proj_apply (w : FVec Ideal S128x2048 .f32) (x : FVec Ideal S2048x64 .f32) (o : Fin 128) (d : Fin 64) :
    matmul (F := Ideal) D₁ none w x (constant S128x64 .f32 0x00000000#32) (ix2 o d)
      = ∑ t : Fin 2048, w (ix2 o t) * x (ix2 t d) := by
  simp only [matmul]
  rw [Ideal.matmul_constant_zero_apply, ← Equiv.sum_comp (contrEquiv1 D₁ 2048 rfl rfl).symm]
  refine Finset.sum_congr rfl fun t _ => ?_
  have ht := contrEquiv1_symm_val D₁ 2048 rfl rfl t
  have el : (D₁).lhsIdx (ix2 o d) ((contrEquiv1 D₁ 2048 rfl rfl).symm t) = ix2 o t := funext fun a => Fin.ext (by
    match a with
    | ⟨0, _⟩ => exact lhs₁_0 _ _
    | ⟨1, _⟩ => exact (lhs₁_1 _ _).trans ht)
  have er : (D₁).rhsIdx (ix2 o d) ((contrEquiv1 D₁ 2048 rfl rfl).symm t) = ix2 t d := funext fun a => Fin.ext (by
    match a with
    | ⟨0, _⟩ => exact (rhs₁_0 _ _).trans ht
    | ⟨1, _⟩ => exact rhs₁_1 _ _)
  rw [el, er]

theorem lhs₂_0 (i : S2048x128.Idx) (q : (D₂).contr.Idx) : ((D₂).lhsIdx i q 0).val = (i 0).val := by
  unfold DotDims.lhsIdx
  rw [dif_neg (show ¬(0 : Fin S2048x64.rank) ∈ (D₂).lhsBatch by decide),
    dif_pos (show (0 : Fin S2048x64.rank) ∈ (D₂).lhsNonContracting by decide)]
  rfl
theorem lhs₂_1 (i : S2048x128.Idx) (q : (D₂).contr.Idx) : ((D₂).lhsIdx i q 1).val = (q ⟨0, by decide⟩).val :=
  (D₂).lhsIdx_val_of_single rfl i q
theorem rhs₂_0 (i : S2048x128.Idx) (q : (D₂).contr.Idx) : ((D₂).rhsIdx i q 0).val = (q ⟨0, by decide⟩).val :=
  (D₂).rhsIdx_val_of_single rfl i q
theorem rhs₂_1 (i : S2048x128.Idx) (q : (D₂).contr.Idx) : ((D₂).rhsIdx i q 1).val = (i 1).val := by
  unfold DotDims.rhsIdx
  rw [dif_neg (show ¬(1 : Fin S64x128.rank) ∈ (D₂).rhsBatch by decide),
    dif_pos (show (1 : Fin S64x128.rank) ∈ (D₂).rhsNonContracting by decide)]
  rfl

/-- X[b] · Z at (s, o), for any 64 × 128 matrix Z: the sum over the 64 columns d of X[b][s, d] · Z[d, o]. -/
theorem rows_apply (x : FVec Ideal S2048x64 .f32) (z : FVec Ideal S64x128 .f32) (s : Fin 2048) (o : Fin 128) :
    matmul (F := Ideal) D₂ none x z (constant S2048x128 .f32 0x00000000#32) (ix2 s o)
      = ∑ d : Fin 64, x (ix2 s d) * z (ix2 d o) := by
  simp only [matmul]
  rw [Ideal.matmul_constant_zero_apply, ← Equiv.sum_comp (contrEquiv1 D₂ 64 rfl rfl).symm]
  refine Finset.sum_congr rfl fun d _ => ?_
  have hd := contrEquiv1_symm_val D₂ 64 rfl rfl d
  have el : (D₂).lhsIdx (ix2 s o) ((contrEquiv1 D₂ 64 rfl rfl).symm d) = ix2 s d := funext fun a => Fin.ext (by
    match a with
    | ⟨0, _⟩ => exact lhs₂_0 _ _
    | ⟨1, _⟩ => exact (lhs₂_1 _ _).trans hd)
  have er : (D₂).rhsIdx (ix2 s o) ((contrEquiv1 D₂ 64 rfl rfl).symm d) = ix2 d o := funext fun a => Fin.ext (by
    match a with
    | ⟨0, _⟩ => exact (rhs₂_0 _ _).trans hd
    | ⟨1, _⟩ => exact rhs₂_1 _ _)
  rw [el, er]

/-! ## The stored value -/

/-- THE BODY'S STORED VALUE at (z, s, o) (z the block's unit axis): the projected arrangement of the loaded blocks,
    Σ_d x0[0, s, d] · (Σ_t x1[o, t] · x0[0, t, d]) + x2[o]. -/
theorem stored_apply (x0 : Vec Ideal S1x2048x64 .f32) (x1 : Vec Ideal S128x2048 .f32) (x2 : Vec Ideal S128 .f32)
    (z : Fin 1) (s : Fin 2048) (o : Fin 128) :
    k0_pay1 (F := Ideal) x0 x1 x2 (ix3 z s o)
      = (∑ d : Fin 64, x0 (ix3 0 s d) * ∑ t : Fin 2048, x1 (ix2 o t) * x0 (ix3 0 t d)) + x2 (ix1 o) := by
  unfold k0_pay1
  dsimp only
  -- the stored value is the 2048 × 128 sum viewed with a leading unit axis
  refine (shapeCast_apply _ _ (ix3 z s o) (ix2 s o) (by
    rw [Shape.rowMajor_val_three, Shape.rowMajor_val_two]
    show s.val * 128 + o.val = (z.val * 2048 + s.val) * 128 + o.val
    have hz : z.val = 0 := by have := z.isLt; omega
    rw [hz]; omega)).trans ?_
  rw [addf_apply, bias_rows, rows_apply]
  refine congrArg (· + x2 (ix1 o)) (Finset.sum_congr rfl fun d _ => ?_)
  rw [block_row, transpose_at, proj_apply]
  exact congrArg (x0 (ix3 0 s d) * ·) (Finset.sum_congr rfl fun t _ => by rw [block_row])

end Cert.QuadForm.Body

end
-- ==== Proof.KernelValue.lean ====
/-
  The kernel's result array after the run is the projected arrangement of its three argument arrays.

  The grid has 16 points, one per batch b. At point b the pipeline stages block b of X (all of X[b], as 1 × 2048 × 64), the
  whole of W and the whole bias, and writes back block b of the result (1 × 2048 × 128). By the body's stored value
  (read at an index in the module on the body) what is written back at (0, s, o) is
      Σ_d X[b, s, d] · (Σ_t W[o, t] · X[b, t, d]) + bias[o],
  which is entry (b, s, o) of the projected arrangement: point b writes block b of ONE whole-array function. The 16
  blocks tile the result (index (b, s, o) lies in block b), so the array ends at that function.
-/
import proofs.«109744_j58548994179562_1_alg».proof.Proof.Gen.KernelIdeal.Value
import proofs.«109744_j58548994179562_1_alg».proof.Proof.Body
import proofs.«109744_j58548994179562_1_alg».proof.Proof.Spec

set_option maxRecDepth 16384

noncomputable section

open scoped BigOperators

namespace Cert.QuadForm.Kernel

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The block indices at grid point t, decided over the 16 points: X's and the result's blocks are numbered by the
    point along the batch axis and are whole along the other two; W's and the bias's one block is the whole array. -/
theorem block_indices : ∀ t : Fin cfg0.N, t.val < 16
    ∧ win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 1) = 0
    ∧ win0_3.index t (0 : Fin 3) = t.val ∧ win0_3.index t (1 : Fin 3) = 0 ∧ win0_3.index t (2 : Fin 3) = 0 :=
  (by decide +kernel : ∀ t : Fin grid0.N, _)

/-- Every batch is some point's. -/
theorem point_of_batch : ∀ b : Fin 16, ∃ t : Fin cfg0.N, t.val = b.val :=
  (by decide +kernel : ∀ b : Fin 16, ∃ t : Fin grid0.N, t.val = b.val)

/-! ## The staged blocks, read where the arrays hold them -/

/-- Block t of X at (0, s, d) is X[t, s, d]. -/
theorem read_X (c : Dev nD) (t : Fin cfg0.N) (b : Fin 16) (hb : b.val = t.val) (s : Fin 2048) (d : Fin 64) :
    iblk m c 0 t (ix3 (0 : Fin 1) s d) = V m c main_arg0 (ix3 b s d) := by
  obtain ⟨-, e0, e1, e2, -⟩ := block_indices t
  show V m c main_arg0 (((cfg0.win 0).blk t).view.emb (ix3 (0 : Fin 1) s d)) = _
  refine congrArg (V m c main_arg0) (funext fun a => Fin.ext ?_)
  match a with
  | ⟨0, _⟩ => show win0_0.index t (0 : Fin 3) * 1 + 1 * 0 = b.val; omega
  | ⟨1, _⟩ => show win0_0.index t (1 : Fin 3) * 2048 + 1 * s.val = s.val; omega
  | ⟨2, _⟩ => show win0_0.index t (2 : Fin 3) * 64 + 1 * d.val = d.val; omega

/-- The one block of W at (o, k) is W[o, k]. -/
theorem read_W (c : Dev nD) (t : Fin cfg0.N) (o : Fin 128) (k : Fin 2048) :
    iblk m c 1 t (ix2 o k) = V m c main_arg1 (ix2 o k) := by
  obtain ⟨-, -, -, -, e0, e1, -⟩ := block_indices t
  show V m c main_arg1 (((cfg0.win 1).blk t).view.emb (ix2 o k)) = _
  refine congrArg (V m c main_arg1) (funext fun a => Fin.ext ?_)
  match a with
  | ⟨0, _⟩ => show win0_1.index t (0 : Fin 2) * 128 + 1 * o.val = o.val; omega
  | ⟨1, _⟩ => show win0_1.index t (1 : Fin 2) * 2048 + 1 * k.val = k.val; omega

/-- The one block of the bias at o is bias[o]. -/
theorem read_bias (c : Dev nD) (t : Fin cfg0.N) (o : Fin 128) :
    iblk m c 2 t (ix1 o) = V m c main_arg2 (ix1 o) := by
  obtain ⟨-, -, -, -, -, -, e0, -⟩ := block_indices t
  show V m c main_arg2 (((cfg0.win 2).blk t).view.emb (ix1 o)) = _
  refine congrArg (V m c main_arg2) (funext fun a => Fin.ext ?_)
  match a with
  | ⟨0, _⟩ => show win0_2.index t (0 : Fin 1) * 128 + 1 * o.val = o.val; omega

/-! ## What a point writes back -/

/-- The body's stored value at point t, at (z, s, o), is entry (t, s, o) of the projected arrangement of the arrays. -/
theorem stored_at_point (c : Dev nD) (t : Fin cfg0.N) (b : Fin 16) (hb : b.val = t.val) (z : Fin 1) (s : Fin 2048) (o : Fin 128) :
    k0_pay1 (F := Ideal) (iblk m c 0 t) (iblk m c 1 t) (iblk m c 2 t) (ix3 z s o)
      = projAt (V m c main_arg0) (V m c main_arg1) (V m c main_arg2) b s o := by
  refine (Body.stored_apply (iblk m c 0 t) (iblk m c 1 t) (iblk m c 2 t) z s o).trans ?_
  unfold projAt
  simp only [read_X m c t b hb, read_W m c t, read_bias m c t]

/-- WHAT POINT t WRITES BACK is block t of the projected arrangement of the argument arrays. -/
theorem flushed_eq (c : Dev nD) (t : Fin cfg0.N) :
    (dats m 0 c).flushed 3 t
      = ((cfg0.win 3).blk t).view.read (Elt Ideal) (proj (V m c main_arg0) (V m c main_arg1) (V m c main_arg2)) := by
  rw [Value.flushed3]
  unfold out0_3
  rw [View.canon_unit_zero zeros3]
  simp only [View.ld_unit_zero (S := S1x2048x64) zeros3, View.ld_unit_zero (S := S128x2048) zeros2,
    View.ld_unit_zero (S := S128) zeros1]
  obtain ⟨hlt, -, -, -, -, -, -, e0, e1, e2⟩ := block_indices t
  funext y
  obtain ⟨z, s, o, rfl⟩ : ∃ (z : Fin 1) (s : Fin 2048) (o : Fin 128), y = ix3 z s o := ⟨y 0, y 1, y 2, eq_ix3 y⟩
  have hz : z.val = 0 := by have := z.isLt; omega
  show k0_pay1 (F := Ideal) (iblk m c 0 t) (iblk m c 1 t) (iblk m c 2 t) (ix3 z s o)
    = proj (V m c main_arg0) (V m c main_arg1) (V m c main_arg2) (((cfg0.win 3).blk t).view.emb (ix3 z s o))
  have hi : ((cfg0.win 3).blk t).view.emb (ix3 z s o) = ix3 (⟨t.val, hlt⟩ : Fin 16) s o := funext fun a => Fin.ext (by
    match a with
    | ⟨0, _⟩ => show win0_3.index t (0 : Fin 3) * 1 + 1 * z.val = t.val; omega
    | ⟨1, _⟩ => show win0_3.index t (1 : Fin 3) * 2048 + 1 * s.val = s.val; omega
    | ⟨2, _⟩ => show win0_3.index t (2 : Fin 3) * 128 + 1 * o.val = o.val; omega)
  rw [hi]
  exact stored_at_point m c t ⟨t.val, hlt⟩ rfl z s o

/-! ## The blocks tile the result -/

/-- An index of the result is in point t's block iff each coordinate is in the block's range on its axis. -/
theorem mem_block (t : Fin cfg0.N) (i : S16x2048x128.Idx) :
    i ∈ ((cfg0.win 3).blk t).view.set ↔ ∀ a : Fin 3, win0_3.index t a * S1x2048x128.size a ≤ (i a).val
      ∧ (i a).val < win0_3.index t a * S1x2048x128.size a + S1x2048x128.size a := by
  show i ∈ ((View.whole main_v0).slice (win0_3.rect t)).set ↔ _
  rw [View.set_slice_whole, Rect.mem_set_unit]
  exact Iff.rfl

/-- Index (b, s, o) lies in the block of the point numbered b. -/
theorem covered (i : S16x2048x128.Idx) :
    ∃ t : Fin cfg0.N, (cfg0.win 3).flush t = true ∧ i ∈ ((cfg0.win 3).blk t).view.set := by
  have h0 : (i 0).val < 16 := (i 0).isLt
  have h1 : (i 1).val < 2048 := (i 1).isLt
  have h2 : (i 2).val < 128 := (i 2).isLt
  obtain ⟨t, ht⟩ := point_of_batch ⟨(i 0).val, h0⟩
  have ht' : t.val = (i 0).val := ht
  obtain ⟨-, -, -, -, -, -, -, e0, e1, e2⟩ := block_indices t
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 2048 ≤ (i 1).val ∧ (i 1).val < win0_3.index t (1 : Fin 3) * 2048 + 2048; omega
  | ⟨2, _⟩ => show win0_3.index t (2 : Fin 3) * 128 ≤ (i 2).val ∧ (i 2).val < win0_3.index t (2 : Fin 3) * 128 + 128; omega

/-! ## The array after the run, and the run -/

/-- THE RESULT ARRAY after the run: the projected arrangement of the argument arrays as launched. -/
theorem final (c : Dev nD) : (dats m 0 c).arrAt 3 cfg0.N
    = proj (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the kernel's program terminates with the result at the projected arrangement of
    the arguments, and the arguments unchanged. -/
theorem run : θ_run defs (onTc (τ := τ) (main (F := Ideal))) ⟨m, fun _ => 0, ρ⟩ fun r => ∀ c : Dev nD,
      r.2.mem ((c : Thread nD τ).loc main_v0)
        = proj (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.QuadForm.Kernel

end
-- ==== Proof.Finite.lean ====
/-
  What the precondition gives: every entry of X and of W is a real number.

  The precondition is the conjunction of three tests, one per argument array: every entry a satisfies |a| < +∞, where
  |a| is max a (−a) on the extended reals and +∞ is written by its binary word. Each test is an `and` over all entries of
  the comparison bits, so the conjunction being true gives the comparison at every entry; and an extended real a with
  max a (−a) < ⊤ is neither ⊤ nor ⊥ (for a = ⊥ the maximum is −⊥ = ⊤), hence a real number.
-/
import proofs.«109744_j58548994179562_1_alg».proof.Pre_finite_inputs
import Idealize.ShloMosaic.PureOps.Ideal
import Idealize.ShloMosaic.Lib.ReduceAll
import Idealize.ShloMosaic.Lib.ValueIdx

noncomputable section

open Idealize.ShloMosaic Idealize.ShloMosaic.ValueIdx

namespace Cert.QuadForm.Finite

open Cert.Pre_finite_inputs

/-- The scalar shape has one index. -/
instance : Subsingleton S_.Idx := ⟨fun a b => funext fun d => d.elim0⟩

/-- The word of +∞ denotes ⊤. -/
theorem ofBits_inf : Ideal.ofBits .f32 0x7F800000#32 = (⊤ : EReal) := by simp [Ideal.ofBits, Ideal.ieee]

/-- An extended real whose absolute value is below +∞ is a real number. -/
theorem real_of_abs_lt_inf (a : EReal)
    (h : Ideal.cmp .olt (max a (-a)) (Ideal.ofBits .f32 0x7F800000#32) = 1#1) : ∃ r : ℝ, a = (r : EReal) := by
  rw [ofBits_inf] at h
  have hlt : max a (-a) < ⊤ := by
    by_contra hn
    simp [Ideal.cmp, hn] at h
  induction a using EReal.rec with
  | bot => simp at hlt
  | top => simp at hlt
  | coe r => exact ⟨r, rfl⟩

variable [Facts]

/-- Under the precondition every entry of the first two argument arrays is a real number. -/
theorem real_entries (X : FVec Ideal S16x2048x64 .f32) (W : FVec Ideal S128x2048 .f32) (bias : FVec Ideal S128 .f32)
    (h : fn (F := Ideal) X W bias = fun _ => 1#1) :
    (∀ i, ∃ r : ℝ, X i = (r : EReal)) ∧ (∀ i, ∃ r : ℝ, W i = (r : EReal)) := by
  have h0 := congrFun h ix0
  dsimp only [fn] at h0
  -- the conjunction of the three tests: split it
  obtain ⟨hXW, -⟩ := IntOp.andi_eq_one.1 h0
  obtain ⟨hX, hW⟩ := IntOp.andi_eq_one.1 hXW
  exact ⟨fun i => real_of_abs_lt_inf (X i) (Host.reduce_andi_all _ _ _ _ ix0 hX i),
    fun i => real_of_abs_lt_inf (W i) (Host.reduce_andi_all _ _ _ _ ix0 hW i)⟩

end Cert.QuadForm.Finite

end
-- ==== Proof.lean ====
/-
  A quadratic form in X computed two ways: the certificate that the kernel and its reference agree on the extended reals.

  Arguments: X (16 × 2048 × 64), W (128 × 2048), bias (128). The reference forms, per batch b, the Gram matrix
  X[b] · X[b]ᵀ (2048 × 2048) and multiplies it by Wᵀ:
      out[b, s, o] = Σ_t (Σ_d X[b, s, d] · X[b, t, d]) · W[o, t] + bias[o].
  The kernel, one grid point per batch, first projects, Z = W · X[b] (128 × 64), and then multiplies X[b] by Zᵀ:
      out[b, s, o] = Σ_d X[b, s, d] · (Σ_t W[o, t] · X[b, t, d]) + bias[o].
  Both are the triple sum Σ_d Σ_t X[b, s, d] · W[o, t] · X[b, t, d] plus the bias. Passing from one to the other
  distributes a factor over a sum and exchanges two finite sums; on the extended reals distributivity needs the
  entries to be real numbers, and that is what the precondition (every input entry finite) provides for X and W.

  The pieces: the two arrangements and the law between them (Spec); the reference's generated run, read one operation
  at a time, is the first arrangement (RefGram); the kernel body's stored value at an index is the second arrangement
  of the staged blocks (Body), hence every grid point writes its block of one whole-array function and the 16 blocks
  tile the result (KernelValue); the precondition makes every entry of X and W real (Finite). The three frame claims
  are the generated frames (the reference's is its generated run with the result dropped), and the idealization of
  the kernel rewrote nothing, so that claim is `True`.
-/
import proofs.«109744_j58548994179562_1_alg».proof.Defs
import proofs.«109744_j58548994179562_1_alg».proof.Proof.Gen.Kernel
import proofs.«109744_j58548994179562_1_alg».proof.Proof.Gen.Kernel.Skeleton
import proofs.«109744_j58548994179562_1_alg».proof.Proof.Gen.Kernel.Launch
import proofs.«109744_j58548994179562_1_alg».proof.Proof.Gen.Kernel.Points
import proofs.«109744_j58548994179562_1_alg».proof.Proof.Gen.Kernel.Frame
import proofs.«109744_j58548994179562_1_alg».proof.Proof.Gen.KernelIdeal
import proofs.«109744_j58548994179562_1_alg».proof.Proof.Gen.KernelIdeal.Skeleton
import proofs.«109744_j58548994179562_1_alg».proof.Proof.Gen.KernelIdeal.Launch
import proofs.«109744_j58548994179562_1_alg».proof.Proof.Gen.KernelIdeal.Points
import proofs.«109744_j58548994179562_1_alg».proof.Proof.Gen.KernelIdeal.Frame
import proofs.«109744_j58548994179562_1_alg».proof.Proof.Gen.ReferenceIdeal
import proofs.«109744_j58548994179562_1_alg».proof.Proof.Gen.KernelIdeal.Value
import proofs.«109744_j58548994179562_1_alg».proof.Proof.Gen.ReferenceIdeal.Run
import proofs.«109744_j58548994179562_1_alg».proof.Proof.Gen.ReferenceIdeal.Read
import proofs.«109744_j58548994179562_1_alg».proof.Proof.Gen.Pre_finite_inputs
import proofs.«109744_j58548994179562_1_alg».proof.Proof.Spec
import proofs.«109744_j58548994179562_1_alg».proof.Proof.RefGram
import proofs.«109744_j58548994179562_1_alg».proof.Proof.Body
import proofs.«109744_j58548994179562_1_alg».proof.Proof.KernelValue
import proofs.«109744_j58548994179562_1_alg».proof.Proof.Finite
import Idealize.ShloMosaic.Adequacy
import Idealize.ShloMosaic.Init

noncomputable section

namespace Cert.Proof

open Idealize.ShloMosaic Idealize.ShloMosaic.TcCoe Idealize.SL.Sem

/-- The kernel as printed terminates without a fault and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Reading the kernel at the ideal values rewrote no operation. -/
theorem preserves : Cert.preserves_Kernel_KernelIdeal := trivial

/-- From memories agreeing on X, W and the bias, with every entry finite, both programs end with the Gram arrangement
    of the arguments in their result: the reference computes it as written; the kernel computes the projected
    arrangement, which is the same array because every entry of X and W is a real number. -/
theorem algebraic : Cert.algebraic_KernelIdeal_ReferenceIdeal := by
  intro m ρ m' ρ' hpre hagree
  refine ⟨fun c => Cert.QuadForm.gram
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun r h c => ⟨(h c).1.trans ?_, (h c).2⟩)
      (Cert.QuadForm.Kernel.run m ρ)
    obtain ⟨hX, hW⟩ := Cert.QuadForm.Finite.real_entries _ _ _ (hpre c)
    exact Cert.QuadForm.proj_eq_gram _ _ _ hX hW
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v4_eq, Cert.QuadForm.Ref.result_eq_gram,
      (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
